-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x1x8192 : Shape := ⟨3, ![2, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1x1024 : Shape := ⟨2, ![1, 1024]⟩
abbrev S1x8192 : Shape := ⟨2, ![1, 8192]⟩
abbrev S1x1024x1024 : Shape := ⟨3, ![1, 1024, 1024]⟩
abbrev S1x1024x1 : Shape := ⟨3, ![1, 1024, 1]⟩
abbrev S2x8192 : Shape := ⟨2, ![2, 8192]⟩
abbrev S_ : Shape := ⟨0, ![]⟩
abbrev S2 : Shape := ⟨1, ![2]⟩

abbrev nBuf : Space → Nat
  | .hbm => 21
  | .vmem => 10
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x1x8192, .f32⟩
  | .hbm, ⟨3, _⟩ => ⟨S2x1x8192, .f32⟩
  | .hbm, ⟨4, _⟩ => ⟨S2x8192, .f32⟩
  | .hbm, ⟨5, _⟩ => ⟨S2x8192, .f32⟩
  | .hbm, ⟨6, _⟩ => ⟨S_, .f32⟩
  | .hbm, ⟨7, _⟩ => ⟨S2, .f32⟩
  | .hbm, ⟨8, _⟩ => ⟨S_, .f32⟩
  | .hbm, ⟨9, _⟩ => ⟨S2, .f32⟩
  | .hbm, ⟨10, _⟩ => ⟨S2, .f32⟩
  | .hbm, ⟨11, _⟩ => ⟨S_, .f32⟩
  | .hbm, ⟨12, _⟩ => ⟨S2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | .local _ .vmem, ⟨8, _⟩ => ⟨S1x1024, .f32⟩
  | .local _ .vmem, ⟨9, _⟩ => ⟨S1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v53 : BitVec 32 := Scalar.muli arg2 c1024_i32
  v53
def k0_off1 (i : grid0.Coords) : Fin 2 → Nat :=
  let c0_16 : Index := 0#32
  let arg2 : BitVec 32 := BitVec.ofNat 32 (i 2).val
  let c1024_i32 : BitVec 32 := 1024#32
  let v53 : BitVec 32 := Scalar.muli arg2 c1024_i32
  let v54 : BitVec 32 := v53
  let v55 : Index := Scalar.indexCast v54
  ![0, v55.toNat]
def k0_cond3 (i : grid0.Coords) : BitVec 1 :=
  let arg2 : BitVec 32 := BitVec.ofNat 32 (i 2).val
  let c7_i32 : BitVec 32 := 7#32
  let v62 : BitVec 1 := Scalar.cmpi .eq arg2 c7_i32
  let v63 : BitVec 32 := Scalar.extui v62
  let c0_i32_18 : BitVec 32 := 0#32
  let v64 : BitVec 1 := Scalar.cmpi .ne v63 c0_i32_18
  v64

def k0_cond4 (i : grid0.Coords) : BitVec 1 :=
  let arg1 : BitVec 32 := BitVec.ofNat 32 (i 1).val
  let c7_i32_19 : BitVec 32 := 7#32
  let v65 : BitVec 1 := Scalar.cmpi .eq arg1 c7_i32_19
  let arg2 : BitVec 32 := BitVec.ofNat 32 (i 2).val
  let c7_i32_20 : BitVec 32 := 7#32
  let v66 : BitVec 1 := Scalar.cmpi .eq arg2 c7_i32_20
  let v67 : BitVec 1 := Scalar.andi v65 v66
  let v68 : BitVec 32 := Scalar.extui v67
  let c0_i32_21 : BitVec 32 := 0#32
  let v69 : BitVec 1 := Scalar.cmpi .ne v68 c0_i32_21
  v69

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1024x3_S1x1024x3_0_0_0 : ∀ a, (![0, 0, 0] : Fin 3 → Nat) a + S1x1024x3.size a ≤ S1x1024x3.size a
  h_S1x1024x3 : 0 < S1x1024x3.numel
  slices_S1x1024x3_o0_0_0_S1x1024x1 : S1x1024x3.Slices ![0, 0, 0] S1x1024x1
  shapeCasts_S1x1024x1_S1x1024 : S1x1024x1.ShapeCasts S1x1024
  shapeCasts_S1x1024_S1x1024x1 : S1x1024.ShapeCasts S1x1024x1
  shapeCasts_S1x1024_S1x1x1024 : S1x1024.ShapeCasts S1x1x1024
  broadcasts_S1x1024x1_S1x1024x1024 : S1x1024x1.Broadcasts S1x1024x1024
  broadcasts_S1x1x1024_S1x1024x1024 : S1x1x1024.Broadcasts S1x1024x1024
  slices_S1x1024x3_o0_0_1_S1x1024x1 : S1x1024x3.Slices ![0, 0, 1] S1x1024x1
  slices_S1x1024x3_o0_0_2_S1x1024x1 : S1x1024x3.Slices ![0, 0, 2] S1x1024x1
  reduces_S1x1024x1024_S1x1024 : S1x1024x1024.Reduces [2] S1x1024
  reduces_S1x1024x1024_S1x1024_2 : S1x1024x1024.Reduces [1] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S2x1x8192_S2x8192 : S2x1x8192.ShapeCasts S2x8192
  reducesTo_S2x8192_S2_d1 : S2x8192.ReducesTo [1] S2
  h_S_ : 0 < S_.numel
  bcast_S_S2 : S_.BroadcastsInDim S2 (![] : Fin 0 → Fin S2.rank)
  reducesTo_S2_S_d0 : S2.ReducesTo [0] S_
  hrank0 : 0 < grid0.rank
  k0_mult1_dvd : ∀ i : grid0.Coords, 128 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x8192x3.size a
  hwx0_0 : ∀ i : grid0.Coords, EltTy.bits .f32 = 32 ∨ (Rect.block (s := S2x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x8192x3.size a
  hwx0_1 : ∀ i : grid0.Coords, EltTy.bits .f32 = 32 ∨ (Rect.block (s := S2x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x8192.size a
  hwx0_2 : ∀ i : grid0.Coords, EltTy.bits .f32 = 32 ∨ (Rect.block (s := S2x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x1 : Shape := ⟨3, ![2, 8192, 1]⟩
abbrev S2x1x8192 : Shape := ⟨3, ![2, 1, 8192]⟩
abbrev S2x8192x8192 : Shape := ⟨3, ![2, 8192, 8192]⟩
abbrev S2 : Shape := ⟨1, ![2]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S2x8192x3, .f32⟩
  | .hbm, ⟨7, _⟩ => ⟨S_, .f32⟩
  | .hbm, ⟨8, _⟩ => ⟨S2x8192, .f32⟩
  | .hbm, ⟨9, _⟩ => ⟨S2x1x8192, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S2x8192, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Pieces.lean ====
import proofs.«160537_j11218454577160_2_alg».proof.Proof.Gen.KernelIdeal.Frame
import Idealize.ShloMosaic.Lib.Pipeline.Value
import Idealize.ShloMosaic.Lib.WritesUnit
import Idealize.ShloMosaic.Lib.Tactic

/-!
# What one grid point's body leaves, as pure functions of what it found

The body keeps two running minima in scratch memory: one per query row of the current row tile (reset at the first
column tile, lowered by the minimum over the tile's columns), one per key column of the whole batch element (reset at
the first tile of the batch element, lowered on the current column tile's stretch only by the minimum over the tile's
rows). At the last column tile the square roots of the row minima are the row tile's output block; at the last tile of
the batch element the square roots of the column minima are the batch element's second output block.
Here each case of the body's conditionals is read back as one of these functions, at any float instance.
-/

set_option maxRecDepth 16384

noncomputable section

open Idealize.ShloMosaic Idealize.ShloMosaic.TcCoe Idealize.SL.Sem
open Idealize.ShloMosaic.Pipeline (Dat)

namespace Cert.KernelIdeal.Chamfer

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The row minima after a tile: the old ones lowered by the minimum over the tile's columns. -/
def rowStep (x0 x1 : Vec F S1x1024x3 .f32) (a : Vec F S1x1024 .f32) : Vec F S1x1024 .f32 :=
  k0_pay2 (k0_pay8 x0 x1) (k0_pay9 x0 x1) a

/-- The column minima of the tile's stretch after the tile: the old ones lowered by the minimum over the tile's rows. -/
def colStep (x0 x1 : Vec F S1x1024x3 .f32) (s : Vec F S1x1024 .f32) : Vec F S1x1024 .f32 :=
  k0_pay3 (k0_pay8 x0 x1) (k0_pay9 x0 x1) s

/-- The stretch of the column minima the tile at point i works on. -/
def colSlice (i : grid0.Coords) (xs1 : Vec F S1x8192 .f32) : Vec F S1x1024 .f32 :=
  View.ld xs1 (Rect.unit (s := S1x8192) (k0_off1 i) S1x1024.size (k0_off1_inb i))

/-- All the column minima after the tile at point i: lowered on the tile's stretch, untouched elsewhere. -/
def colUpd (i : grid0.Coords) (x0 x1 : Vec F S1x1024x3 .f32) (xs1 : Vec F S1x8192 .f32) : Vec F S1x8192 .f32 :=
  fun y => if h : ∀ a, k0_off1 i a ≤ (y a).val ∧ (y a).val < k0_off1 i a + S1x1024.size a then
      colStep x0 x1 (colSlice i xs1) (Rect.unitLocal (s := S1x8192) (off := k0_off1 i) (size := S1x1024.size) y h)
    else xs1 y

theorem sout_A_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : cond0_0 i) (hc1 : cond0_1 i) (hc2 : ¬cond0_2 i) (hc3 : ¬cond0_3 i)
    (x0 : Vec F S1x1024x3 .f32) (x1 : Vec F S1x1024x3 .f32)  :
    sout0_A_0 c i arg3 harg3 arg4 harg4 arg5 harg5 arg6 harg6 arg7 harg7 arg8 harg8 hc0 hc1 hc2 hc3 x0 x1  = rowStep x0 x1 k0_pay7 := by
  unfold sout0_A_0
  rw [View.read_writes_eq_canon _ _ _ (scover0_A_0 c i arg3 harg3 arg4 harg4 arg5 harg5 arg6 harg6 arg7 harg7 arg8 harg8 hc0 hc1 hc2 hc3 x0 x1 )]
  unfold kernelRun0_A
  dsimp only
  sl_unfold_words
  rw [View.canon_cons_unit_zero (S := S1x1024) hz2, View.readCov_unit_zero (S := S1x1024) _ hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_D_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : cond0_1 i) (hc2 : ¬cond0_2 i) (hc3 : ¬cond0_3 i)
    (x0 : Vec F S1x1024x3 .f32) (x1 : Vec F S1x1024x3 .f32) (xs1 : Vec F S1x8192 .f32) :
    sout0_D_0 c i arg3 harg3 arg4 harg4 arg5 harg5 arg6 harg6 arg7 harg7 arg8 harg8 hc0 hc1 hc2 hc3 x0 x1 xs1 = rowStep x0 x1 k0_pay7 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x1024) hz2, View.readCov_unit_zero (S := S1x1024) _ hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_B_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : ¬cond0_2 i) (hc3 : ¬cond0_3 i)
    (x0 : Vec F S1x1024x3 .f32) (x1 : Vec F S1x1024x3 .f32) (xs0 : Vec F S1x1024 .f32) (xs1 : Vec F S1x8192 .f32) :
    sout0_B_0 c i arg3 harg3 arg4 harg4 arg5 harg5 arg6 harg6 arg7 harg7 arg8 harg8 hc0 hc1 hc2 hc3 x0 x1 xs0 xs1 = rowStep x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_C_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i)
    (x0 : Vec F S1x1024x3 .f32) (x1 : Vec F S1x1024x3 .f32) (xs0 : Vec F S1x1024 .f32) (xs1 : Vec F S1x8192 .f32) :
    sout0_C_0 c i arg3 harg3 arg4 harg4 arg5 harg5 arg6 harg6 arg7 harg7 arg8 harg8 hc0 hc1 hc2 hc3 x0 x1 xs0 xs1 = rowStep x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_E_0 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i)
    (x0 : Vec F S1x1024x3 .f32) (x1 : Vec F S1x1024x3 .f32) (xs0 : Vec F S1x1024 .f32) (xs1 : Vec F S1x8192 .f32) :
    sout0_E_0 c i arg3 harg3 arg4 harg4 arg5 harg5 arg6 harg6 arg7 harg7 arg8 harg8 hc0 hc1 hc2 hc3 x0 x1 xs0 xs1 = rowStep x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_B_1 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : ¬cond0_2 i) (hc3 : ¬cond0_3 i)
    (x0 : Vec F S1x1024x3 .f32) (x1 : Vec F S1x1024x3 .f32) (xs0 : Vec F S1x1024 .f32) (xs1 : Vec F S1x8192 .f32) :
    sout0_B_1 c i arg3 harg3 arg4 harg4 arg5 harg5 arg6 harg6 arg7 harg7 arg8 harg8 hc0 hc1 hc2 hc3 x0 x1 xs0 xs1 = colUpd i x0 x1 xs1 := by
  unfold sout0_B_1
  unfold kernelRun0_B
  dsimp only
  sl_unfold_words
  funext y
  refine (View.read_writes_cons_unit arg8.view (harg8.unread xs1) (k0_off1_inb i) _ [] y (off' := k0_off1 i) rfl).trans ?_
  unfold colUpd
  rw [View.writes_nil]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_C_1 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i)
    (x0 : Vec F S1x1024x3 .f32) (x1 : Vec F S1x1024x3 .f32) (xs0 : Vec F S1x1024 .f32) (xs1 : Vec F S1x8192 .f32) :
    sout0_C_1 c i arg3 harg3 arg4 harg4 arg5 harg5 arg6 harg6 arg7 harg7 arg8 harg8 hc0 hc1 hc2 hc3 x0 x1 xs0 xs1 = colUpd i x0 x1 xs1 := by
  unfold sout0_C_1
  unfold kernelRun0_C
  dsimp only
  sl_unfold_words
  funext y
  refine (View.read_writes_cons_unit arg8.view (harg8.unread xs1) (k0_off1_inb i) _ [] y (off' := k0_off1 i) rfl).trans ?_
  unfold colUpd
  rw [View.writes_nil]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_D_1 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : cond0_1 i) (hc2 : ¬cond0_2 i) (hc3 : ¬cond0_3 i)
    (x0 : Vec F S1x1024x3 .f32) (x1 : Vec F S1x1024x3 .f32) (xs1 : Vec F S1x8192 .f32) :
    sout0_D_1 c i arg3 harg3 arg4 harg4 arg5 harg5 arg6 harg6 arg7 harg7 arg8 harg8 hc0 hc1 hc2 hc3 x0 x1 xs1 = colUpd i x0 x1 xs1 := by
  unfold sout0_D_1
  unfold kernelRun0_D
  dsimp only
  sl_unfold_words
  funext y
  refine (View.read_writes_cons_unit arg8.view (harg8.unread xs1) (k0_off1_inb i) _ [] y (off' := k0_off1 i) rfl).trans ?_
  unfold colUpd
  rw [View.writes_nil]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_E_1 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i)
    (x0 : Vec F S1x1024x3 .f32) (x1 : Vec F S1x1024x3 .f32) (xs0 : Vec F S1x1024 .f32) (xs1 : Vec F S1x8192 .f32) :
    sout0_E_1 c i arg3 harg3 arg4 harg4 arg5 harg5 arg6 harg6 arg7 harg7 arg8 harg8 hc0 hc1 hc2 hc3 x0 x1 xs0 xs1 = colUpd i x0 x1 xs1 := by
  unfold sout0_E_1
  unfold kernelRun0_E
  dsimp only
  sl_unfold_words
  funext y
  refine (View.read_writes_cons_unit arg8.view (harg8.unread xs1) (k0_off1_inb i) _ [] y (off' := k0_off1 i) rfl).trans ?_
  unfold colUpd
  rw [View.writes_nil]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem sout_A_1 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : cond0_0 i) (hc1 : cond0_1 i) (hc2 : ¬cond0_2 i) (hc3 : ¬cond0_3 i)
    (x0 : Vec F S1x1024x3 .f32) (x1 : Vec F S1x1024x3 .f32)  :
    sout0_A_1 c i arg3 harg3 arg4 harg4 arg5 harg5 arg6 harg6 arg7 harg7 arg8 harg8 hc0 hc1 hc2 hc3 x0 x1  = colUpd i x0 x1 k0_pay6 := by
  unfold sout0_A_1
  unfold kernelRun0_A
  dsimp only
  sl_unfold_words
  funext y
  refine (View.read_writes_cons_unit VS0_1 VS0_1.junk (k0_off1_inb i) _ _ y (off' := k0_off1 i) rfl).trans ?_
  unfold colUpd
  rw [View.read_writes_junk_eq_canon, View.readAt_writes_junk_eq_canon, View.canon_unit_zero hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem out_C_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : ¬cond0_3 i)
    (x0 : Vec F S1x1024x3 .f32) (x1 : Vec F S1x1024x3 .f32) (xs0 : Vec F S1x1024 .f32) (xs1 : Vec F S1x8192 .f32) :
    out0_C_2 c i arg3 harg3 arg4 harg4 arg5 harg5 arg6 harg6 arg7 harg7 arg8 harg8 hc0 hc1 hc2 hc3 x0 x1 xs0 xs1 = k0_pay4 (rowStep x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero (S := S1x1024) _ hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem out_E_2 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i)
    (x0 : Vec F S1x1024x3 .f32) (x1 : Vec F S1x1024x3 .f32) (xs0 : Vec F S1x1024 .f32) (xs1 : Vec F S1x8192 .f32) :
    out0_E_2 c i arg3 harg3 arg4 harg4 arg5 harg5 arg6 harg6 arg7 harg7 arg8 harg8 hc0 hc1 hc2 hc3 x0 x1 xs0 xs1 = k0_pay4 (rowStep x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero (S := S1x1024) _ hz2]
  simp only [View.readAt_eq_ld, harg3.read_unread, harg4.read_unread, harg7.read_unread, harg8.read_unread, View.ld_unit_zero (S := S1x1024x3) hz3, View.ld_unit_zero (S := S1x1024) hz2, View.ld_unit_zero (S := S1x8192) hz2]
  rfl

theorem out_E_3 (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (arg7 : Memref sig .tc .vmem S1x1024 .f32) (harg7 : arg7.IsWhole) (arg8 : Memref sig .tc .vmem S1x8192 .f32) (harg8 : arg8.IsWhole) (hc0 : ¬cond0_0 i) (hc1 : ¬cond0_1 i) (hc2 : cond0_2 i) (hc3 : cond0_3 i)
    (x0 : Vec F S1x1024x3 .f32) (x1 : Vec F S1x1024x3 .f32) (xs0 : Vec F S1x1024 .f32) (xs1 : Vec F S1x8192 .f32) :
    out0_E_3 c i arg3 harg3 arg4 harg4 arg5 harg5 arg6 harg6 arg7 harg7 arg8 harg8 hc0 hc1 hc2 hc3 x0 x1 xs0 xs1 = k0_pay5 (colUpd i x0 x1 xs1) := by
  rw [← sout_E_1 c i arg3 harg3 arg4 harg4 arg5 harg5 arg6 harg6 arg7 harg7 arg8 harg8 hc0 hc1 hc2 hc3 x0 x1 xs0 xs1]
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  simp only [View.readAt_eq_ld, View.ld_unit_zero (S := S1x8192) hz2]

end Cert.KernelIdeal.Chamfer

end
-- ==== Proof.Steps.lean ====
import proofs.«160537_j11218454577160_2_alg».proof.Proof.Pieces

/-!
# The running minima, point by point

What the two scratch buffers hold after each grid point, and what the two output blocks hold at the points that
write them, in terms of the pure functions of the previous module: at the first column tile the row minima restart
from +infinity, at the first tile of a batch element the column minima restart from +infinity, elsewhere both continue
from what the point before left; the last column tile writes the square roots of the row minima, the last tile of the
batch element the square roots of the column minima.
-/

set_option maxRecDepth 16384

noncomputable section

open Idealize.ShloMosaic Idealize.ShloMosaic.TcCoe Idealize.SL.Sem
open Idealize.ShloMosaic.Pipeline (Dat)

namespace Cert.KernelIdeal.Chamfer

open Cert.KernelIdeal Cert.KernelIdeal.Gen

variable {F : FTy → Type} [FloatOps F]
variable (m : (ℓ : Loc nD τ sig) → Buf (Elt F) ℓ)

theorem N_eq : cfg0.N = 128 := N_0

/-- At the first column tile of a row tile the row minima restart from +infinity. -/
theorem row_first (c : Dev nD) (t : Fin cfg0.N) (h1 : t.val % 8 = 0) :
    (outsAt0 m c t.val t.isLt).2.2.1 = rowStep (iblk m c 0 t) (iblk m c 1 t) k0_pay7 := by
  have hN : t.val < 128 := lt_of_lt_of_eq t.isLt N_eq
  have h2 : ¬t.val % 8 = 7 := by omega
  have h3 : ¬t.val % 64 = 63 := by omega
  by_cases h0 : t.val % 64 = 0
  · rw [outsAt0_A m c t h0 h1 h2 h3]
    dsimp only; exact sout_A_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  · rw [outsAt0_D m c t h0 h1 h2 h3]
    dsimp only; exact sout_D_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2

/-- At every other column tile they continue from what the point before left. -/
theorem row_next (c : Dev nD) (t : Fin cfg0.N) (h1 : ¬t.val % 8 = 0) :
    (outsAt0 m c t.val t.isLt).2.2.1
      = rowStep (iblk m c 0 t) (iblk m c 1 t) (outsAt0 m c (t.val - 1) (Nat.lt_of_le_of_lt (Nat.sub_le _ _) t.isLt)).2.2.1 := by
  have hN : t.val < 128 := lt_of_lt_of_eq t.isLt N_eq
  have h0 : ¬t.val % 64 = 0 := by omega
  by_cases h2 : t.val % 8 = 7
  · by_cases h3 : t.val % 64 = 63
    · rw [outsAt0_E m c t h0 h1 h2 h3]
      dsimp only; exact sout_E_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    · rw [outsAt0_C m c t h0 h1 h2 h3]
      dsimp only; exact sout_C_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · have h3 : ¬t.val % 64 = 63 := by omega
    rw [outsAt0_B m c t h0 h1 h2 h3]
    dsimp only; exact sout_B_0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At the first tile of a batch element the column minima restart from +infinity. -/
theorem col_first (c : Dev nD) (t : Fin cfg0.N) (h0 : t.val % 64 = 0) :
    (outsAt0 m c t.val t.isLt).2.2.2 = colUpd (grid0.coords t) (iblk m c 0 t) (iblk m c 1 t) k0_pay6 := by
  have hN : t.val < 128 := lt_of_lt_of_eq t.isLt N_eq
  have h1 : t.val % 8 = 0 := by omega
  have h2 : ¬t.val % 8 = 7 := by omega
  have h3 : ¬t.val % 64 = 63 := by omega
  rw [outsAt0_A m c t h0 h1 h2 h3]
  dsimp only; exact sout_A_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)

/-- At every other tile they continue from what the point before left. -/
theorem col_next (c : Dev nD) (t : Fin cfg0.N) (h0 : ¬t.val % 64 = 0) :
    (outsAt0 m c t.val t.isLt).2.2.2
      = colUpd (grid0.coords t) (iblk m c 0 t) (iblk m c 1 t) (outsAt0 m c (t.val - 1) (Nat.lt_of_le_of_lt (Nat.sub_le _ _) t.isLt)).2.2.2 := by
  have hN : t.val < 128 := lt_of_lt_of_eq t.isLt N_eq
  by_cases h1 : t.val % 8 = 0
  · have h2 : ¬t.val % 8 = 7 := by omega
    have h3 : ¬t.val % 64 = 63 := by omega
    rw [outsAt0_D m c t h0 h1 h2 h3]
    dsimp only; exact sout_D_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
  · by_cases h2 : t.val % 8 = 7
    · by_cases h3 : t.val % 64 = 63
      · rw [outsAt0_E m c t h0 h1 h2 h3]
        dsimp only; exact sout_E_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      · rw [outsAt0_C m c t h0 h1 h2 h3]
        dsimp only; exact sout_C_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    · have h3 : ¬t.val % 64 = 63 := by omega
      rw [outsAt0_B m c t h0 h1 h2 h3]
      dsimp only; exact sout_B_1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last column tile of a row tile writes the square roots of the row minima it has just completed. -/
theorem out_rows (c : Dev nD) (t : Fin cfg0.N) (h2 : t.val % 8 = 7) :
    (outsAt0 m c t.val t.isLt).1 = k0_pay4 (outsAt0 m c t.val t.isLt).2.2.1 := by
  have hN : t.val < 128 := lt_of_lt_of_eq t.isLt N_eq
  have h1 : ¬t.val % 8 = 0 := by omega
  have h0 : ¬t.val % 64 = 0 := by omega
  rw [row_next m c t h1]
  by_cases h3 : t.val % 64 = 63
  · rw [outsAt0_E m c t h0 h1 h2 h3]
    dsimp only; exact out_E_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_C m c t h0 h1 h2 h3]
    dsimp only; exact out_C_2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last tile of a batch element writes the square roots of the column minima it has just completed. -/
theorem out_cols (c : Dev nD) (t : Fin cfg0.N) (h3 : t.val % 64 = 63) :
    (outsAt0 m c t.val t.isLt).2.1 = k0_pay5 (outsAt0 m c t.val t.isLt).2.2.2 := by
  have hN : t.val < 128 := lt_of_lt_of_eq t.isLt N_eq
  have h0 : ¬t.val % 64 = 0 := by omega
  have h1 : ¬t.val % 8 = 0 := by omega
  have h2 : t.val % 8 = 7 := by omega
  rw [col_next m c t h0]
  rw [outsAt0_E m c t h0 h1 h2 h3]
  dsimp only; exact out_E_3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Chamfer

end
-- ==== Proof.LibSqrtOfMin.lean ====
import Idealize.ShloMosaic.PureOps.Ideal
import Idealize.ShloMosaic.PureOps.Ideal.Laws

/-!
# The extended square root of a minimum, minima as infima, and a squared distance in three coordinates

* the squared Euclidean distance of two points of ℝ³, written as the sum of the three squared coordinate
  differences, is the two squared norms minus twice the inner product (only for finite coordinates: over the
  extended reals the expansion fails at infinities);
* the square root on the extended reals (with its conventions at the bottom, the top and the negatives) is
  monotone, so it commutes with the minimum of a finite nonempty family;
* a minimum folded from the top element over a finite type is the infimum of the family, and a value known
  through its lower bounds (z ≤ v exactly when z is below every member) is that infimum.
-/

namespace Chamfer

open Idealize.ShloMosaic

/-- The sum of the three squared coordinate differences, accumulated from zero in coordinate order, is the sum of
    the two squared norms (each accumulated from zero) minus twice the inner product, for real coordinates. -/
theorem sq_dist_expand (g0 g1 g2 p0 p1 p2 : ℝ) :
    (((0 : EReal) + ((g0 : EReal) - p0) * ((g0 : EReal) - p0)) + ((g1 : EReal) - p1) * ((g1 : EReal) - p1))
        + ((g2 : EReal) - p2) * ((g2 : EReal) - p2)
      = ((0 + ((g0 : EReal) * g0 + (g1 : EReal) * g1 + (g2 : EReal) * g2))
          + (0 + ((p0 : EReal) * p0 + (p1 : EReal) * p1 + (p2 : EReal) * p2)))
        - ((2 : ℝ) : EReal) * ((g0 : EReal) * p0 + (g1 : EReal) * p1 + (g2 : EReal) * p2) := by
  simp only [← EReal.coe_zero, ← EReal.coe_mul, ← EReal.coe_add, ← EReal.coe_sub]
  exact congrArg _ (by ring)

/-- The word of the float 2.0 is the real number two. -/
theorem ofBits_two : Ideal.ofBits .f32 0x40000000#32 = ((2 : ℝ) : EReal) := by
  simp [Ideal.ofBits, Ideal.ieee, -EReal.coe_mul]; norm_num

/-- The word of +infinity is the top element. -/
theorem ofBits_inf : Ideal.ofBits .f32 0x7F800000#32 = ⊤ := by
  simp [Ideal.ofBits, Ideal.ieee]

/-- The extended square root is monotone: the bottom and the negatives go to the bottom, the nonnegative reals to
    their roots, the top to the top. -/
theorem sqrt_mono : Monotone Ideal.sqrt := by
  intro x y h
  induction x using EReal.rec with
  | bot => simp
  | top => rw [top_le_iff.mp h]
  | coe a =>
    induction y using EReal.rec with
    | bot => exact absurd h (by simp)
    | top => simp
    | coe b =>
      have hab : a ≤ b := EReal.coe_le_coe_iff.mp h
      simp only [Ideal.sqrt_coe]
      split_ifs with ha hb hb
      · exact le_rfl
      · exact bot_le
      · exfalso; linarith
      · exact EReal.coe_le_coe_iff.mpr (Real.sqrt_le_sqrt hab)

/-- A monotone map of the extended reals commutes with the infimum of a finite nonempty family: the infimum is
    attained. -/
theorem map_iInf_of_mono {ι : Type*} [Finite ι] [Nonempty ι] {f : EReal → EReal} (hf : Monotone f) (u : ι → EReal) :
    f (⨅ i, u i) = ⨅ i, f (u i) := by
  refine le_antisymm (le_iInf fun i => hf (iInf_le u i)) ?_
  obtain ⟨i, hi⟩ := exists_eq_ciInf_of_finite (f := u)
  rw [← hi]
  exact iInf_le (fun i => f (u i)) i

/-- The square root of the smallest member is the smallest of the square roots. -/
theorem sqrt_iInf {ι : Type*} [Finite ι] [Nonempty ι] (u : ι → EReal) :
    Ideal.sqrt (⨅ i, u i) = ⨅ i, Ideal.sqrt (u i) :=
  map_iInf_of_mono sqrt_mono u

/-- A minimum folded from the top element over a whole finite type is the infimum of the family. -/
theorem fold_min_top_eq_iInf {ι : Type*} [Fintype ι] (u : ι → EReal) :
    (Finset.univ : Finset ι).fold min ⊤ u = ⨅ i, u i := by
  refine eq_of_forall_le_iff fun z => ?_
  rw [Finset.le_fold_min, le_iInf_iff]
  exact ⟨fun h i => h.2 i (Finset.mem_univ i), fun h => ⟨le_top, fun i _ => h i⟩⟩

/-- A value whose lower bounds are exactly the common lower bounds of a family is the family's infimum. -/
theorem eq_iInf_of_forall_le_iff {ι : Sort*} {v : EReal} {u : ι → EReal} (h : ∀ z, z ≤ v ↔ ∀ i, z ≤ u i) :
    v = ⨅ i, u i :=
  eq_of_forall_le_iff fun z => (h z).trans le_iInf_iff.symm

end Chamfer
-- ==== Proof.TileValue.lean ====
import proofs.«160537_j11218454577160_2_alg».proof.Proof.Pieces
import proofs.«160537_j11218454577160_2_alg».proof.Proof.LibSqrtOfMin
import Idealize.ShloMosaic.Lib.ValueIdx
import Idealize.ShloMosaic.PureOps.Ideal.Laws

/-!
# One tile of squared distances, and the running minima, read entry by entry over the extended reals

For a tile of 1024 query points (rows of the first block) against 1024 key points (rows of the second block) the body
forms, coordinate by coordinate, the difference of the query's coordinate spread along the columns and the key's
coordinate spread along the rows, squares it and adds the three squares from zero; the result is clamped below at zero.
Entry (q, k) of the tile is therefore the clamped squared distance of query q to key k. The row minima are lowered by
the minimum over k, the column minima by the minimum over q, both folded from +infinity.
-/

noncomputable section

open Idealize.ShloMosaic Idealize.ShloMosaic.TcCoe Idealize.SL.Sem
open Idealize.ShloMosaic.ValueIdx

namespace Cert.KernelIdeal.Chamfer

open Cert.KernelIdeal Cert.KernelIdeal.Gen

section Layout
variable {α : Type}

/-- Coordinate d of the query points, cut out as a column and spread along the tile's columns: entry (q, k) is the
    coordinate of query q. -/
theorem spread_rows (x : S1x1024x3.Idx → α) (off : Fin 3 → ℕ) (d : Fin 3) (hoff : off = ![0, 0, d.val])
    (hs : S1x1024x3.Slices off S1x1024x1) (h1 : S1x1024x1.ShapeCasts S1x1024) (h2 : S1x1024.ShapeCasts S1x1024x1)
    (hb : S1x1024x1.Broadcasts S1x1024x1024) (q k : Fin 1024) :
    broadcastTo S1x1024x1024 (shapeCast S1x1024x1 (shapeCast S1x1024 (extractStridedSlice S1x1024x1 off x hs) h1) h2) hb
      (ix3 0 q k) = x (ix3 0 q d) := by
  subst hoff
  rw [shapeCast_shapeCast]
  rw [broadcastTo_apply _ hb (ix3 0 q k) (ix3 0 q 0) (fun a => by
    match a with
    | ⟨0, _⟩ => rfl
    | ⟨1, _⟩ => rfl
    | ⟨2, _⟩ => rfl)]
  exact extractStridedSlice_apply _ x hs (ix3 0 q 0) (ix3 0 q d) (fun a => by
    match a with
    | ⟨0, _⟩ => rfl
    | ⟨1, _⟩ => show q.val = 0 + q.val; omega
    | ⟨2, _⟩ => show d.val = d.val + 0; omega)

/-- Coordinate d of the key points, cut out as a column, laid as a row and spread along the tile's rows: entry (q, k)
    is the coordinate of key k. -/
theorem spread_cols (x : S1x1024x3.Idx → α) (off : Fin 3 → ℕ) (d : Fin 3) (hoff : off = ![0, 0, d.val])
    (hs : S1x1024x3.Slices off S1x1024x1) (h1 : S1x1024x1.ShapeCasts S1x1024) (h3 : S1x1024.ShapeCasts S1x1x1024)
    (hb : S1x1x1024.Broadcasts S1x1024x1024) (q k : Fin 1024) :
    broadcastTo S1x1024x1024 (shapeCast S1x1x1024 (shapeCast S1x1024 (extractStridedSlice S1x1024x1 off x hs) h1) h3) hb
      (ix3 0 q k) = x (ix3 0 k d) := by
  subst hoff
  rw [broadcastTo_apply _ hb (ix3 0 q k) (ix3 0 0 k) (fun a => by
    match a with
    | ⟨0, _⟩ => rfl
    | ⟨1, _⟩ => rfl
    | ⟨2, _⟩ => rfl)]
  rw [shapeCast_apply _ h3 (ix3 0 0 k) (ix2 0 k) (by
    rw [Shape.rowMajor_val_two, Shape.rowMajor_val_three]; rfl)]
  rw [shapeCast_apply _ h1 (ix2 0 k) (ix3 0 k 0) (by
    rw [Shape.rowMajor_val_two, Shape.rowMajor_val_three]
    show ((0 : Fin 1).val * 1024 + k.val) * 1 + (0 : Fin 1).val = (0 : Fin 1).val * 1024 + k.val
    simp)]
  exact extractStridedSlice_apply _ x hs (ix3 0 k 0) (ix3 0 k d) (fun a => by
    match a with
    | ⟨0, _⟩ => rfl
    | ⟨1, _⟩ => show k.val = 0 + k.val; omega
    | ⟨2, _⟩ => show d.val = d.val + 0; omega)

/-- A row of 1024 entries laid as a 1 x 1 x 1024 block reads the row's entry. -/
theorem row_as_block (x : S1x1024.Idx → α) (h : S1x1024.ShapeCasts S1x1x1024) (q : Fin 1024) :
    shapeCast S1x1x1024 x h (ix3 0 0 q) = x (ix2 0 q) :=
  shapeCast_apply _ h (ix3 0 0 q) (ix2 0 q) (by rw [Shape.rowMajor_val_two, Shape.rowMajor_val_three]; rfl)

/-- A row of 8192 entries laid as a 1 x 1 x 8192 block reads the row's entry. -/
theorem long_row_as_block (x : S1x8192.Idx → α) (h : S1x8192.ShapeCasts S1x1x8192) (q : Fin 8192) :
    shapeCast S1x1x8192 x h (ix3 0 0 q) = x (ix2 0 q) :=
  shapeCast_apply _ h (ix3 0 0 q) (ix2 0 q) (by rw [Shape.rowMajor_val_two, Shape.rowMajor_val_three]; rfl)

end Layout

/-- The clamped squared distance of row q of the first block to row k of the second: the three squared coordinate
    differences added from zero in coordinate order, then the maximum with zero. -/
def tileAt (x0 x1 : S1x1024x3.Idx → EReal) (q k : Fin 1024) : EReal :=
  max (((Ideal.ofBits .f32 0x00000000#32
        + (x0 (ix3 0 q 0) - x1 (ix3 0 k 0)) * (x0 (ix3 0 q 0) - x1 (ix3 0 k 0)))
        + (x0 (ix3 0 q 1) - x1 (ix3 0 k 1)) * (x0 (ix3 0 q 1) - x1 (ix3 0 k 1)))
        + (x0 (ix3 0 q 2) - x1 (ix3 0 k 2)) * (x0 (ix3 0 q 2) - x1 (ix3 0 k 2)))
    (Ideal.ofBits .f32 0x00000000#32)

/-- Entry (q, k) of the tile the body computes is that clamped squared distance. -/
theorem tile_apply (x0 x1 : Vec Ideal S1x1024x3 .f32) (q k : Fin 1024) :
    k0_pay1 (F := Ideal) (k0_pay8 x0 x1) (k0_pay9 x0 x1) (ix3 0 q k) = tileAt x0 x1 q k := by
  unfold k0_pay1 k0_pay8 k0_pay9 tileAt
  simp only [maximumf, addf, mulf, subf, broadcast, Ideal.maximumf_def, Ideal.addf_def, Ideal.mulf_def, Ideal.subf_def,
    Ideal.ofBits_def]
  rw [spread_rows x0 ![0, 0, 0] 0 rfl, spread_rows x0 ![0, 0, 1] 1 rfl, spread_rows x0 ![0, 0, 2] 2 rfl,
    spread_cols x1 ![0, 0, 0] 0 rfl, spread_cols x1 ![0, 0, 1] 1 rfl, spread_cols x1 ![0, 0, 2] 2 rfl]

/-! ## The minima over a tile's columns and rows, through their lower bounds -/

/-- A lower bound of the minimum over the tile's columns, folded from +infinity, is a lower bound of every entry of
    the row. -/
theorem le_min_over_cols (src : FVec Ideal S1x1024x1024 .f32) (h : S1x1024x1024.Reduces [2] S1x1024)
    (hφ : FKind.Formats .f32) (hacc : (0x7F800000#32 : BitVec 32) = FKind.minimumf.neutral .f32 hφ) (q : Fin 1024)
    (z : EReal) :
    z ≤ multiReduction .minimumf [2] S1x1024 src 0x7F800000#32 h hφ hacc (ix2 0 q) ↔ ∀ k : Fin 1024, z ≤ src (ix3 0 q k) := by
  rw [multiReduction_minimumf_eq_fold, h.fold_filter_drop_single]
  show z ≤ Finset.fold min (Ideal.ofBits .f32 0x7F800000#32) (src ∘ h.lift (ix2 0 q)) Finset.univ ↔ _
  rw [Finset.le_fold_min]
  have e : ∀ k : Fin 1024, h.lift (ix2 0 q) k = ix3 0 q k := fun k => funext fun a => Fin.ext (by
    match a with
    | ⟨0, _⟩ => rfl
    | ⟨1, _⟩ => rfl
    | ⟨2, _⟩ => rfl)
  constructor
  · intro H k
    exact le_of_le_of_eq (H.2 k (Finset.mem_univ _)) (congrArg src (e k))
  · intro H
    exact ⟨by rw [Chamfer.ofBits_inf]; exact le_top, fun k _ => le_of_le_of_eq (H k) (congrArg src (e k)).symm⟩

/-- A lower bound of the minimum over the tile's rows, folded from +infinity, is a lower bound of every entry of the
    column. -/
theorem le_min_over_rows (src : FVec Ideal S1x1024x1024 .f32) (h : S1x1024x1024.Reduces [1] S1x1024)
    (hφ : FKind.Formats .f32) (hacc : (0x7F800000#32 : BitVec 32) = FKind.minimumf.neutral .f32 hφ) (k : Fin 1024)
    (z : EReal) :
    z ≤ multiReduction .minimumf [1] S1x1024 src 0x7F800000#32 h hφ hacc (ix2 0 k) ↔ ∀ q : Fin 1024, z ≤ src (ix3 0 q k) := by
  rw [multiReduction_minimumf_eq_fold, h.fold_filter_drop_single]
  show z ≤ Finset.fold min (Ideal.ofBits .f32 0x7F800000#32) (src ∘ h.lift (ix2 0 k)) Finset.univ ↔ _
  rw [Finset.le_fold_min]
  have e : ∀ q : Fin 1024, h.lift (ix2 0 k) q = ix3 0 q k := fun q => funext fun a => Fin.ext (by
    match a with
    | ⟨0, _⟩ => rfl
    | ⟨1, _⟩ => rfl
    | ⟨2, _⟩ => rfl)
  constructor
  · intro H q
    exact le_of_le_of_eq (H.2 q (Finset.mem_univ _)) (congrArg src (e q))
  · intro H
    exact ⟨by rw [Chamfer.ofBits_inf]; exact le_top, fun q _ => le_of_le_of_eq (H q) (congrArg src (e q)).symm⟩

/-- The lower bounds of a row minimum after a tile: those of the old one that are below every entry of the tile's row. -/
theorem le_rowStep (x0 x1 : Vec Ideal S1x1024x3 .f32) (a : Vec Ideal S1x1024 .f32) (q : Fin 1024) (z : EReal) :
    z ≤ rowStep (F := Ideal) x0 x1 a (ix2 0 q) ↔ z ≤ a (ix2 0 q) ∧ ∀ k : Fin 1024, z ≤ tileAt x0 x1 q k := by
  unfold rowStep k0_pay2
  dsimp only
  rw [shapeCast_self]
  show z ≤ min (a (ix2 0 q)) _ ↔ _
  rw [le_min_iff]
  refine and_congr Iff.rfl ((le_min_over_cols _ _ _ _ q z).trans ?_)
  simp only [tile_apply]

/-- The lower bounds of a column minimum after a tile: those of the old one that are below every entry of the tile's
    column. -/
theorem le_colStep (x0 x1 : Vec Ideal S1x1024x3 .f32) (s : Vec Ideal S1x1024 .f32) (k : Fin 1024) (z : EReal) :
    z ≤ colStep (F := Ideal) x0 x1 s (ix2 0 k) ↔ z ≤ s (ix2 0 k) ∧ ∀ q : Fin 1024, z ≤ tileAt x0 x1 q k := by
  unfold colStep k0_pay3
  dsimp only
  rw [shapeCast_self]
  show z ≤ min (s (ix2 0 k)) _ ↔ _
  rw [le_min_iff]
  refine and_congr Iff.rfl ((le_min_over_rows _ _ _ _ k z).trans ?_)
  simp only [tile_apply]

/-- The row minima restart from +infinity. -/
theorem pay7_apply (y : S1x1024.Idx) : k0_pay7 (F := Ideal) y = ⊤ := by
  unfold k0_pay7
  rw [shapeCast_self]
  exact Chamfer.ofBits_inf

/-- The column minima restart from +infinity. -/
theorem pay6_apply (y : S1x8192.Idx) : k0_pay6 (F := Ideal) y = ⊤ := by
  unfold k0_pay6
  rw [shapeCast_self]
  exact Chamfer.ofBits_inf

/-- The row tile's output block: the square roots of the row minima. -/
theorem pay4_apply (v : Vec Ideal S1x1024 .f32) (q : Fin 1024) :
    k0_pay4 (F := Ideal) v (ix3 0 0 q) = Ideal.sqrt (v (ix2 0 q)) := by
  unfold k0_pay4
  rw [row_as_block]
  rfl

/-- The batch element's second output block: the square roots of the column minima. -/
theorem pay5_apply (v : Vec Ideal S1x8192 .f32) (s : Fin 8192) :
    k0_pay5 (F := Ideal) v (ix3 0 0 s) = Ideal.sqrt (v (ix2 0 s)) := by
  unfold k0_pay5
  rw [long_row_as_block]
  rfl

/-! ## The column minima after a tile, entry by entry -/

section ColUpd
variable {F : FTy → Type} [FloatOps F]

/-- The stretch the tile works on starts in row 0 of the one-row buffer. -/
theorem off1_zero (i : grid0.Coords) : k0_off1 i 0 = 0 := rfl

/-- Entry k of the tile's stretch of the column minima is the entry of the whole buffer k places into the stretch. -/
theorem colSlice_apply (i : grid0.Coords) (xs1 : Vec F S1x8192 .f32) (k : Fin 1024) (y : S1x8192.Idx)
    (hk : (y 1).val = k0_off1 i 1 + k.val) : colSlice i xs1 (ix2 0 k) = xs1 y := by
  unfold colSlice
  show xs1 _ = xs1 y
  refine congrArg xs1 (funext fun a => Fin.ext ?_)
  match a with
  | ⟨0, _⟩ =>
    show k0_off1 i 0 + 1 * (0 : Fin 1).val = (y 0).val
    have := idx2_lt0 y
    rw [off1_zero]; simp; omega
  | ⟨1, _⟩ =>
    show k0_off1 i 1 + 1 * k.val = (y 1).val
    omega

/-- On the tile's stretch the column minima are lowered by the tile's column minima. -/
theorem colUpd_hit (i : grid0.Coords) (x0 x1 : Vec F S1x1024x3 .f32) (xs1 : Vec F S1x8192 .f32) (y : S1x8192.Idx)
    (k : Fin 1024) (hk : (y 1).val = k0_off1 i 1 + k.val) :
    colUpd i x0 x1 xs1 y = colStep x0 x1 (colSlice i xs1) (ix2 0 k) := by
  have h0 := idx2_lt0 y
  have hmem : ∀ a, k0_off1 i a ≤ (y a).val ∧ (y a).val < k0_off1 i a + S1x1024.size a :=
    Fin.forall_fin_two.mpr ⟨by rw [off1_zero]; exact ⟨Nat.zero_le _, by show (y 0).val < 0 + 1; omega⟩,
      ⟨by omega, by show (y 1).val < k0_off1 i 1 + 1024; have := k.isLt; omega⟩⟩
  unfold colUpd
  rw [dif_pos hmem]
  refine congrArg (colStep x0 x1 (colSlice i xs1)) (funext fun a => Fin.ext ?_)
  match a with
  | ⟨0, _⟩ => show (y 0).val - k0_off1 i 0 = (0 : Fin 1).val; simp; omega
  | ⟨1, _⟩ => show (y 1).val - k0_off1 i 1 = k.val; omega

/-- Off the tile's stretch they are untouched. -/
theorem colUpd_miss (i : grid0.Coords) (x0 x1 : Vec F S1x1024x3 .f32) (xs1 : Vec F S1x8192 .f32) (y : S1x8192.Idx)
    (h : (y 1).val < k0_off1 i 1 ∨ k0_off1 i 1 + 1024 ≤ (y 1).val) : colUpd i x0 x1 xs1 y = xs1 y := by
  unfold colUpd
  rw [dif_neg]
  intro hall
  have := hall 1
  have e : S1x1024.size 1 = 1024 := rfl
  rw [e] at this
  omega

end ColUpd

end Cert.KernelIdeal.Chamfer

end
-- ==== Proof.Spec.lean ====
import proofs.«160537_j11218454577160_2_alg».proof.Proof.LibSqrtOfMin
import Idealize.ShloMosaic.PureOps
import Idealize.ShloMosaic.Lib.ValueIdx

/-!
# The two-sided nearest-neighbour distance of two point clouds, as one function of the clouds

Two clouds of 8192 points of the extended-real 3-space per batch element: the queries g and the keys p. The clamped
squared distance of query r to key s is the sum of the three squared coordinate differences (accumulated from zero in
coordinate order), clamped below at zero. Each query's distance to its nearest key is the square root of the infimum
over the keys; each key's distance to its nearest query is the square root of the infimum over the queries. The result
is the mean over the batch of (the mean of the former plus the mean of the latter).
-/

noncomputable section

namespace Chamfer

open Idealize.ShloMosaic Idealize.ShloMosaic.ValueIdx

abbrev SCloud : Shape := ⟨3, ![2, 8192, 3]⟩
abbrev SDist : Shape := ⟨2, ![2, 8192]⟩
abbrev SBatch : Shape := ⟨1, ![2]⟩
abbrev SScalar : Shape := ⟨0, ![]⟩

/-- The clamped squared distance of query r to key s of batch element b. -/
def sqd (g p : SCloud.Idx → EReal) (b : Fin 2) (r s : Fin 8192) : EReal :=
  max (((Ideal.ofBits .f32 0x00000000#32
        + (g (ix3 b r 0) - p (ix3 b s 0)) * (g (ix3 b r 0) - p (ix3 b s 0)))
        + (g (ix3 b r 1) - p (ix3 b s 1)) * (g (ix3 b r 1) - p (ix3 b s 1)))
        + (g (ix3 b r 2) - p (ix3 b s 2)) * (g (ix3 b r 2) - p (ix3 b s 2)))
    (Ideal.ofBits .f32 0x00000000#32)

/-- The same over natural-number positions: the top element outside the clouds, so that it never lowers an infimum. -/
def sqdN (g p : SCloud.Idx → EReal) (b r s : ℕ) : EReal :=
  if h : b < 2 ∧ r < 8192 ∧ s < 8192 then sqd g p ⟨b, h.1⟩ ⟨r, h.2.1⟩ ⟨s, h.2.2⟩ else ⊤

theorem sqdN_eq (g p : SCloud.Idx → EReal) (b : Fin 2) (r s : Fin 8192) : sqdN g p b.val r.val s.val = sqd g p b r s :=
  dif_pos ⟨b.isLt, r.isLt, s.isLt⟩

/-- Each query's distance to its nearest key. -/
def nearKey (g p : SCloud.Idx → EReal) : SDist.Idx → EReal :=
  fun i => Ideal.sqrt (⨅ s : Fin 8192, sqd g p (i 0) (i 1) s)

/-- Each key's distance to its nearest query. -/
def nearQuery (g p : SCloud.Idx → EReal) : SDist.Idx → EReal :=
  fun i => Ideal.sqrt (⨅ r : Fin 8192, sqd g p (i 0) r (i 1))

/-- A bound on a value known through its lower bounds over natural-number positions below 8192 is a bound over the
    keys (or queries) themselves. -/
theorem eq_iInf_of_nat {v : EReal} {u : Fin 8192 → EReal} {uN : ℕ → EReal} (hu : ∀ s : Fin 8192, uN s.val = u s)
    (h : ∀ z, z ≤ v ↔ ∀ s, s < 8192 → z ≤ uN s) : v = ⨅ s : Fin 8192, u s :=
  eq_iInf_of_forall_le_iff fun z => (h z).trans
    ⟨fun H s => hu s ▸ H s.val s.isLt, fun H s hs => by have := H ⟨s, hs⟩; rwa [← hu] at this⟩

/-- The mean over the batch of the sum of the two per-batch-element means: both programs end with these host
    operations, applied to the two arrays of distances. -/
def meanOfMeans (h1 : SDist.ReducesTo [1] SBatch) (h0 : 0 < SScalar.numel)
    (hb : SScalar.BroadcastsInDim SBatch (![] : Fin 0 → Fin SBatch.rank)) (h2 : SBatch.ReducesTo [0] SScalar)
    (d1 d2 : SDist.Idx → EReal) : SScalar.Idx → EReal :=
  Host.divf (F := Ideal) (φ := .f32)
    (Host.reduceAdd (F := Ideal) (φ := .f32)
      (addf (F := Ideal) (φ := .f32)
        (Host.divf (F := Ideal) (φ := .f32)
          (Host.reduceAdd (F := Ideal) (φ := .f32) d1 (constant (F := Ideal) SScalar .f32 0x00000000#32) h1 h0)
          (broadcastInDim SBatch ![] hb (constant (F := Ideal) SScalar .f32 0x46000000#32)))
        (Host.divf (F := Ideal) (φ := .f32)
          (Host.reduceAdd (F := Ideal) (φ := .f32) d2 (constant (F := Ideal) SScalar .f32 0x00000000#32) h1 h0)
          (broadcastInDim SBatch ![] hb (constant (F := Ideal) SScalar .f32 0x46000000#32))))
      (constant (F := Ideal) SScalar .f32 0x00000000#32) h2 h0)
    (constant (F := Ideal) SScalar .f32 0x40000000#32)

end Chamfer

end
-- ==== Proof.Accumulate.lean ====
import proofs.«160537_j11218454577160_2_alg».proof.Proof.Steps
import proofs.«160537_j11218454577160_2_alg».proof.Proof.TileValue
import proofs.«160537_j11218454577160_2_alg».proof.Proof.Spec

/-!
# The running minima in closed form, and the two output blocks

Grid point n is batch element n / 64, row tile (n / 8) % 8, column tile n % 8. Reading the two input blocks at the
point off the argument arrays, entry (q, k) of the point's tile is the clamped squared distance of query
1024 * (row tile) + q to key 1024 * (column tile) + k of the batch element. By induction on the point:

* after point n the row minimum of query row q bounds exactly the distances to the keys below 1024 * (n % 8 + 1);
* after point n the column minimum at key s bounds exactly the distances from the queries of the row tiles i' with
  8 * i' + (s / 1024) at most n % 64 (the tiles of the batch element visited so far that contain the key's column).

So at the last column tile the row minima are the infima over all keys, and at the last tile of the batch element the
column minima are the infima over all queries; the blocks written there are their square roots.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Chamfer

open Cert.KernelIdeal Cert.KernelIdeal.Gen
open _root_.Chamfer (sqd sqdN sqdN_eq nearKey nearQuery eq_iInf_of_nat)

variable (m : (ℓ : Loc nD τ sig) → Buf (Elt Ideal) ℓ) (c : Dev nD)

/-- The queries: the pipeline's first window reads the program's second argument. -/
abbrev Gq : S2x8192x3.Idx → EReal := m ((c : Thread nD τ).loc main_arg1)
/-- The keys: its second window reads the first argument. -/
abbrev Gk : S2x8192x3.Idx → EReal := m ((c : Thread nD τ).loc main_arg0)

/-! ## Where the blocks sit -/

theorem idx0 : ∀ t : Fin cfg0.N, win0_0.index t 0 = t.val / 64 ∧ win0_0.index t 1 = t.val / 8 % 8 ∧ win0_0.index t 2 = 0 :=
  (by decide +kernel : ∀ t : Fin grid0.N, win0_0.index t 0 = t.val / 64 ∧ win0_0.index t 1 = t.val / 8 % 8 ∧ win0_0.index t 2 = 0)
theorem idx1 : ∀ t : Fin cfg0.N, win0_1.index t 0 = t.val / 64 ∧ win0_1.index t 1 = t.val % 8 ∧ win0_1.index t 2 = 0 :=
  (by decide +kernel : ∀ t : Fin grid0.N, win0_1.index t 0 = t.val / 64 ∧ win0_1.index t 1 = t.val % 8 ∧ win0_1.index t 2 = 0)
theorem off1 : ∀ t : Fin cfg0.N, k0_off1 (grid0.coords t) 1 = 1024 * (t.val % 8) :=
  (by decide +kernel : ∀ t : Fin grid0.N, k0_off1 (grid0.coords t) 1 = 1024 * (t.val % 8))

theorem batch_lt (t : Fin cfg0.N) : t.val / 64 < 2 := by
  have := lt_of_lt_of_eq t.isLt N_eq; omega
theorem pos_lt (i : ℕ) (hi : i < 8) (q : Fin 1024) : 1024 * i + q.val < 8192 := by
  have := q.isLt; omega

/-- The first window's block at a point: rows 1024 * (row tile) onward of the batch element's queries. -/
theorem iblk0_apply (t : Fin cfg0.N) (q : Fin 1024) (d : Fin 3) :
    (iblk m c 0 t : Vec Ideal S1x1024x3 .f32) (ix3 0 q d)
      = Gq m c (ix3 ⟨t.val / 64, batch_lt t⟩ ⟨1024 * (t.val / 8 % 8) + q.val, pos_lt _ (Nat.mod_lt _ (by decide)) q⟩ d) := by
  obtain ⟨e0, e1, e2⟩ := idx0 t
  unfold iblk
  rw [View.read_apply]
  show V m c main_arg1 _ = m (c.tc.loc main_arg1) _
  unfold V
  congr 1
  funext a
  apply Fin.ext
  match a with
  | ⟨0, _⟩ => show win0_0.index t 0 * 1 + 1 * (0 : Fin 1).val = t.val / 64; rw [e0]; simp
  | ⟨1, _⟩ => show win0_0.index t 1 * 1024 + 1 * q.val = 1024 * (t.val / 8 % 8) + q.val; rw [e1]; omega
  | ⟨2, _⟩ => show win0_0.index t 2 * 3 + 1 * d.val = d.val; rw [e2]; omega

/-- The second window's block at a point: rows 1024 * (column tile) onward of the batch element's keys. -/
theorem iblk1_apply (t : Fin cfg0.N) (k : Fin 1024) (d : Fin 3) :
    (iblk m c 1 t : Vec Ideal S1x1024x3 .f32) (ix3 0 k d)
      = Gk m c (ix3 ⟨t.val / 64, batch_lt t⟩ ⟨1024 * (t.val % 8) + k.val, pos_lt _ (Nat.mod_lt _ (by decide)) k⟩ d) := by
  obtain ⟨e0, e1, e2⟩ := idx1 t
  unfold iblk
  rw [View.read_apply]
  show V m c main_arg0 _ = m (c.tc.loc main_arg0) _
  unfold V
  congr 1
  funext a
  apply Fin.ext
  match a with
  | ⟨0, _⟩ => show win0_1.index t 0 * 1 + 1 * (0 : Fin 1).val = t.val / 64; rw [e0]; simp
  | ⟨1, _⟩ => show win0_1.index t 1 * 1024 + 1 * k.val = 1024 * (t.val % 8) + k.val; rw [e1]; omega
  | ⟨2, _⟩ => show win0_1.index t 2 * 3 + 1 * d.val = d.val; rw [e2]; omega

/-- Entry (q, k) of the point's tile is the clamped squared distance of the tile's q-th query to its k-th key. -/
theorem tile_eq (t : Fin cfg0.N) (q k : Fin 1024) :
    tileAt (iblk m c 0 t) (iblk m c 1 t) q k
      = sqdN (Gq m c) (Gk m c) (t.val / 64) (1024 * (t.val / 8 % 8) + q.val) (1024 * (t.val % 8) + k.val) := by
  have hN : t.val < 128 := lt_of_lt_of_eq t.isLt N_eq
  have hq := q.isLt
  have hk := k.isLt
  rw [sqdN, dif_pos ⟨by omega, by omega, by omega⟩]
  unfold tileAt sqd
  simp only [iblk0_apply m c t, iblk1_apply m c t]

/-! ## The row minima -/

/-- After point n the row minimum of the row tile's q-th query bounds exactly its distances to the keys of the column
    tiles visited so far. -/
theorem row_inv (n : ℕ) : ∀ (hn : n < cfg0.N) (q : Fin 1024) (z : EReal),
    z ≤ (outsAt0 m c n hn).2.2.1 (ix2 0 q) ↔
      ∀ s, s < 1024 * (n % 8 + 1) → z ≤ sqdN (Gq m c) (Gk m c) (n / 64) (1024 * (n / 8 % 8) + q.val) s := by
  induction n with
  | zero =>
    intro hn q z
    rw [row_first m c ⟨0, hn⟩ rfl, le_rowStep, pay7_apply]
    simp only [tile_eq m c ⟨0, hn⟩]
    constructor
    · rintro ⟨-, H⟩ s hs
      have := H ⟨s, by omega⟩
      simpa using this
    · intro H
      exact ⟨le_top, fun k => by have := H k.val (by have := k.isLt; omega); simpa using this⟩
  | succ n ih =>
    intro hn q z
    have hN : n + 1 < 128 := lt_of_lt_of_eq hn N_eq
    by_cases h1 : (n + 1) % 8 = 0
    · rw [row_first m c ⟨n + 1, hn⟩ h1, le_rowStep, pay7_apply]
      simp only [tile_eq m c ⟨n + 1, hn⟩]
      constructor
      · rintro ⟨-, H⟩ s hs
        have := H ⟨s, by omega⟩
        have e : 1024 * ((n + 1) % 8) + s = s := by omega
        simpa only [e] using this
      · intro H
        refine ⟨le_top, fun k => ?_⟩
        have := H k.val (by have := k.isLt; omega)
        have e : 1024 * ((n + 1) % 8) + k.val = k.val := by omega
        simpa only [e] using this
    · rw [row_next m c ⟨n + 1, hn⟩ h1, le_rowStep]
      simp only [tile_eq m c ⟨n + 1, hn⟩]
      refine (and_congr (ih (Nat.lt_of_succ_lt hn) q z) Iff.rfl).trans ?_
      have eb : n / 64 = (n + 1) / 64 := by omega
      have ei : n / 8 % 8 = (n + 1) / 8 % 8 := by omega
      rw [eb, ei]
      constructor
      · rintro ⟨H1, H2⟩ s hs
        by_cases hlt : s < 1024 * (n % 8 + 1)
        · exact H1 s hlt
        · have := H2 ⟨s - 1024 * ((n + 1) % 8), by omega⟩
          have e : 1024 * ((n + 1) % 8) + (s - 1024 * ((n + 1) % 8)) = s := by omega
          simpa only [e] using this
      · intro H
        exact ⟨fun s hs => H s (by omega), fun k => H _ (by have := k.isLt; omega)⟩

/-! ## The column minima -/

/-- Where an entry of the one-row column buffer sits, by its key. -/
theorem key_hit (t : Fin cfg0.N) (j' : ℕ) (hj : j' < 8) (k : Fin 1024) (hjt : j' = t.val % 8) :
    ((ix2 (0 : Fin 1) (⟨1024 * j' + k.val, pos_lt j' hj k⟩ : Fin 8192) : S1x8192.Idx) 1).val
      = k0_off1 (grid0.coords t) 1 + k.val := by
  subst hjt
  rw [off1 t]

theorem key_miss (t : Fin cfg0.N) (j' : ℕ) (hj : j' < 8) (k : Fin 1024) (hjt : j' ≠ t.val % 8) :
    ((ix2 (0 : Fin 1) (⟨1024 * j' + k.val, pos_lt j' hj k⟩ : Fin 8192) : S1x8192.Idx) 1).val < k0_off1 (grid0.coords t) 1
      ∨ k0_off1 (grid0.coords t) 1 + 1024
          ≤ ((ix2 (0 : Fin 1) (⟨1024 * j' + k.val, pos_lt j' hj k⟩ : Fin 8192) : S1x8192.Idx) 1).val := by
  rw [off1 t]
  show 1024 * j' + k.val < 1024 * (t.val % 8) ∨ 1024 * (t.val % 8) + 1024 ≤ 1024 * j' + k.val
  have := k.isLt
  omega

/-- After point n the column minimum at the k-th key of column tile j' bounds exactly its distances from the queries
    of the row tiles whose tile in column j' has been visited in the batch element so far. -/
theorem col_inv (n : ℕ) : ∀ (hn : n < cfg0.N) (j' : ℕ) (hj : j' < 8) (k : Fin 1024) (z : EReal),
    z ≤ (outsAt0 m c n hn).2.2.2 (ix2 0 ⟨1024 * j' + k.val, pos_lt j' hj k⟩) ↔
      ∀ r, r < 8192 → r / 1024 * 8 + j' ≤ n % 64 → z ≤ sqdN (Gq m c) (Gk m c) (n / 64) r (1024 * j' + k.val) := by
  induction n with
  | zero =>
    intro hn j' hj k z
    rw [col_first m c ⟨0, hn⟩ rfl]
    by_cases hjt : j' = (⟨0, hn⟩ : Fin cfg0.N).val % 8
    · rw [colUpd_hit _ _ _ _ _ k (key_hit ⟨0, hn⟩ j' hj k hjt), le_colStep,
        colSlice_apply _ _ k _ (key_hit ⟨0, hn⟩ j' hj k hjt), pay6_apply]
      simp only [tile_eq m c ⟨0, hn⟩]
      have hj0 : j' = 0 := hjt
      subst hj0
      constructor
      · rintro ⟨-, H⟩ r hr hc
        have := H ⟨r, by omega⟩
        simpa using this
      · intro H
        refine ⟨le_top, fun q => ?_⟩
        have := H q.val (by have := q.isLt; omega) (by have := q.isLt; omega)
        simpa using this
    · rw [colUpd_miss _ _ _ _ _ (key_miss ⟨0, hn⟩ j' hj k hjt), pay6_apply]
      have hj0 : j' ≠ 0 := hjt
      exact ⟨fun _ r hr hc => by omega, fun _ => le_top⟩
  | succ n ih =>
    intro hn j' hj k z
    have hN : n + 1 < 128 := lt_of_lt_of_eq hn N_eq
    by_cases h0 : (n + 1) % 64 = 0
    · rw [col_first m c ⟨n + 1, hn⟩ h0]
      by_cases hjt : j' = (⟨n + 1, hn⟩ : Fin cfg0.N).val % 8
      · rw [colUpd_hit _ _ _ _ _ k (key_hit ⟨n + 1, hn⟩ j' hj k hjt), le_colStep,
          colSlice_apply _ _ k _ (key_hit ⟨n + 1, hn⟩ j' hj k hjt), pay6_apply]
        simp only [tile_eq m c ⟨n + 1, hn⟩]
        have hj0 : j' = 0 := by have : j' = (n + 1) % 8 := hjt; omega
        subst hj0
        constructor
        · rintro ⟨-, H⟩ r hr hc
          have := H ⟨r, by omega⟩
          have e1 : 1024 * ((n + 1) / 8 % 8) + r = r := by omega
          have e2 : 1024 * ((n + 1) % 8) + k.val = 1024 * 0 + k.val := by omega
          simpa only [e1, e2] using this
        · intro H
          refine ⟨le_top, fun q => ?_⟩
          have := H q.val (by have := q.isLt; omega) (by have := q.isLt; omega)
          have e1 : 1024 * ((n + 1) / 8 % 8) + q.val = q.val := by omega
          have e2 : 1024 * ((n + 1) % 8) + k.val = 1024 * 0 + k.val := by omega
          simpa only [e1, e2] using this
      · rw [colUpd_miss _ _ _ _ _ (key_miss ⟨n + 1, hn⟩ j' hj k hjt), pay6_apply]
        have hj0 : j' ≠ 0 := by have : j' ≠ (n + 1) % 8 := hjt; omega
        exact ⟨fun _ r hr hc => by omega, fun _ => le_top⟩
    · rw [col_next m c ⟨n + 1, hn⟩ h0]
      have eb : n / 64 = (n + 1) / 64 := by omega
      by_cases hjt : j' = (⟨n + 1, hn⟩ : Fin cfg0.N).val % 8
      · rw [colUpd_hit _ _ _ _ _ k (key_hit ⟨n + 1, hn⟩ j' hj k hjt), le_colStep,
          colSlice_apply _ _ k _ (key_hit ⟨n + 1, hn⟩ j' hj k hjt)]
        simp only [tile_eq m c ⟨n + 1, hn⟩]
        refine (and_congr (ih (Nat.lt_of_succ_lt hn) j' hj k z) Iff.rfl).trans ?_
        have hjt' : j' = (n + 1) % 8 := hjt
        rw [eb]
        constructor
        · rintro ⟨H1, H2⟩ r hr hc
          by_cases hri : r / 1024 = (n + 1) / 8 % 8
          · have := H2 ⟨r % 1024, Nat.mod_lt _ (by decide)⟩
            have e1 : 1024 * ((n + 1) / 8 % 8) + r % 1024 = r := by omega
            have e2 : 1024 * ((n + 1) % 8) + k.val = 1024 * j' + k.val := by omega
            simpa only [e1, e2] using this
          · exact H1 r hr (by omega)
        · intro H
          refine ⟨fun r hr hc => H r hr (by omega), fun q => ?_⟩
          have hq := q.isLt
          have := H (1024 * ((n + 1) / 8 % 8) + q.val) (by omega) (by omega)
          have e2 : 1024 * ((n + 1) % 8) + k.val = 1024 * j' + k.val := by omega
          simpa only [e2] using this
      · rw [colUpd_miss _ _ _ _ _ (key_miss ⟨n + 1, hn⟩ j' hj k hjt)]
        refine (ih (Nat.lt_of_succ_lt hn) j' hj k z).trans ?_
        have hjt' : j' ≠ (n + 1) % 8 := hjt
        rw [eb]
        exact ⟨fun H r hr hc => H r hr (by omega), fun H r hr hc => H r hr (by omega)⟩

/-! ## The two output blocks -/

/-- The block the last column tile of a row tile writes: each of the row tile's queries' distance to its nearest key. -/
theorem rows_block (t : Fin cfg0.N) (h2 : t.val % 8 = 7) (q : Fin 1024) :
    (outsAt0 m c t.val t.isLt).1 (ix3 0 0 q)
      = nearKey (Gq m c) (Gk m c)
          (ix2 ⟨t.val / 64, batch_lt t⟩ ⟨1024 * (t.val / 8 % 8) + q.val, pos_lt _ (Nat.mod_lt _ (by decide)) q⟩) := by
  rw [out_rows m c t h2, pay4_apply]
  unfold nearKey
  refine congrArg Ideal.sqrt ?_
  refine eq_iInf_of_nat
    (uN := fun s => sqdN (Gq m c) (Gk m c) (t.val / 64) (1024 * (t.val / 8 % 8) + q.val) s)
    (fun s => sqdN_eq (Gq m c) (Gk m c) ⟨t.val / 64, batch_lt t⟩ ⟨1024 * (t.val / 8 % 8) + q.val, _⟩ s) (fun z => ?_)
  rw [row_inv m c t.val t.isLt q z, h2]

/-- The block the last tile of a batch element writes: each of the batch element's keys' distance to its nearest
    query. -/
theorem cols_block (t : Fin cfg0.N) (h3 : t.val % 64 = 63) (s : Fin 8192) :
    (outsAt0 m c t.val t.isLt).2.1 (ix3 0 0 s) = nearQuery (Gq m c) (Gk m c) (ix2 ⟨t.val / 64, batch_lt t⟩ s) := by
  rw [out_cols m c t h3, pay5_apply]
  unfold nearQuery
  refine congrArg Ideal.sqrt ?_
  have hs := s.isLt
  have es : s = ⟨1024 * (s.val / 1024) + (⟨s.val % 1024, Nat.mod_lt _ (by decide)⟩ : Fin 1024).val,
      pos_lt (s.val / 1024) (by omega) _⟩ := Fin.ext (by show s.val = 1024 * (s.val / 1024) + s.val % 1024; omega)
  refine eq_iInf_of_nat
    (uN := fun r => sqdN (Gq m c) (Gk m c) (t.val / 64) r s.val)
    (fun r => sqdN_eq (Gq m c) (Gk m c) ⟨t.val / 64, batch_lt t⟩ r s) (fun z => ?_)
  have key := col_inv m c t.val t.isLt (s.val / 1024) (by omega) ⟨s.val % 1024, Nat.mod_lt _ (by decide)⟩ z
  rw [← es] at key
  have e : 1024 * (s.val / 1024) + (⟨s.val % 1024, Nat.mod_lt _ (by decide)⟩ : Fin 1024).val = s.val := by
    show 1024 * (s.val / 1024) + s.val % 1024 = s.val; omega
  rw [e, h3] at key
  exact key.trans ⟨fun H r hr => H r hr (by omega), fun H r hr _ => H r hr⟩

end Cert.KernelIdeal.Chamfer

end
-- ==== Proof.KernelValue.lean ====
import proofs.«160537_j11218454577160_2_alg».proof.Proof.Accumulate
import Idealize.ShloMosaic.Lib.StableHlo.Run
import Idealize.ShloMosaic.Lib.Tactic

/-!
# The kernel's result, as the specification's function of the two clouds

The first output array is written block by block, one block per row tile, at the row tile's last column tile; the
second, one block per batch element, at the batch element's last tile. Both families of blocks tile their arrays, so
the arrays end holding, entry (b, 0, r), the distance of query r (of key r) of batch element b to its nearest key
(query). The host operations after the region drop the unit axis and take the mean of means.
-/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Chamfer

open Cert.KernelIdeal Cert.KernelIdeal.Gen
open _root_.Chamfer (nearKey nearQuery meanOfMeans)

variable (m : (ℓ : Loc nD τ sig) → Buf (Elt Ideal) ℓ) (ρ : Dev nD → PrngReg) (c : Dev nD)

theorem idx2 : ∀ t : Fin cfg0.N, win0_2.index t 0 = t.val / 64 ∧ win0_2.index t 1 = 0 ∧ win0_2.index t 2 = t.val / 8 % 8 :=
  (by decide +kernel : ∀ t : Fin grid0.N, win0_2.index t 0 = t.val / 64 ∧ win0_2.index t 1 = 0 ∧ win0_2.index t 2 = t.val / 8 % 8)
theorem idx3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

/-- What the first output array ends holding: entry (b, 0, r) is query r's distance to its nearest key. -/
def rowsArr : S2x1x8192.Idx → EReal :=
  fun i => nearKey (Gq m c) (Gk m c) (ix2 (⟨(i 0).val, (i 0).isLt⟩ : Fin 2) (⟨(i 2).val, (i 2).isLt⟩ : Fin 8192))

/-- What the second output array ends holding: entry (b, 0, s) is key s's distance to its nearest query. -/
def colsArr : S2x1x8192.Idx → EReal :=
  fun i => nearQuery (Gq m c) (Gk m c) (ix2 (⟨(i 0).val, (i 0).isLt⟩ : Fin 2) (⟨(i 2).val, (i 2).isLt⟩ : Fin 8192))

/-- What a row tile's last column tile writes back is its block of the first array's final contents. -/
theorem flushed_rows (t : Fin cfg0.N) (hf : (cfg0.win 2).flush t = true) :
    (dats m 0 c).flushed 2 t = ((cfg0.win 2).blk t).view.read (Elt Ideal) (rowsArr m c) := by
  have h2 := (flush0_2 t).mp hf
  obtain ⟨e0, e1, e2⟩ := idx2 t
  show (cfg0.win 2).cut (grid0.coords t) ((dats m 0 c).after 2 t) = _
  rw [after0_2]
  funext j
  have hj0 : (j 0).val < 1 := (j 0).isLt
  have hj1 : (j 1).val < 1 := (j 1).isLt
  have hj2 : (j 2).val < 1024 := (j 2).isLt
  show (outsAt0 m c t.val t.isLt).1 (win0_2.xinj (grid0.coords t) j) = rowsArr m c (((cfg0.win 2).blk t).view.emb j)
  have ej : win0_2.xinj (grid0.coords t) j = ix3 0 0 ⟨(j 2).val, hj2⟩ := funext fun a => Fin.ext (by
    match a with
    | ⟨0, _⟩ => show (j 0).val = 0; omega
    | ⟨1, _⟩ => show (j 1).val = 0; omega
    | ⟨2, _⟩ => rfl)
  rw [ej, rows_block m c t h2]
  unfold rowsArr
  refine congrArg (nearKey (Gq m c) (Gk m c)) (funext fun a => Fin.ext ?_)
  match a with
  | ⟨0, _⟩ => show t.val / 64 = win0_2.index t 0 * 1 + 1 * (j 0).val; rw [e0]; omega
  | ⟨1, _⟩ => show 1024 * (t.val / 8 % 8) + (j 2).val = win0_2.index t 2 * 1024 + 1 * (j 2).val; rw [e2]; omega

/-- What a batch element's last tile writes back is its block of the second array's final contents. -/
theorem flushed_cols (t : Fin cfg0.N) (hf : (cfg0.win 3).flush t = true) :
    (dats m 0 c).flushed 3 t = ((cfg0.win 3).blk t).view.read (Elt Ideal) (colsArr m c) := by
  have h3 := (flush0_3 t).mp hf
  obtain ⟨e0, e1, e2⟩ := idx3 t
  show (cfg0.win 3).cut (grid0.coords t) ((dats m 0 c).after 3 t) = _
  rw [after0_3]
  funext j
  have hj0 : (j 0).val < 1 := (j 0).isLt
  have hj1 : (j 1).val < 1 := (j 1).isLt
  have hj2 : (j 2).val < 8192 := (j 2).isLt
  show (outsAt0 m c t.val t.isLt).2.1 (win0_3.xinj (grid0.coords t) j) = colsArr m c (((cfg0.win 3).blk t).view.emb j)
  have ej : win0_3.xinj (grid0.coords t) j = ix3 0 0 ⟨(j 2).val, hj2⟩ := funext fun a => Fin.ext (by
    match a with
    | ⟨0, _⟩ => show (j 0).val = 0; omega
    | ⟨1, _⟩ => show (j 1).val = 0; omega
    | ⟨2, _⟩ => rfl)
  rw [ej, cols_block m c t h3]
  unfold colsArr
  refine congrArg (nearQuery (Gq m c) (Gk m c)) (funext fun a => Fin.ext ?_)
  match a with
  | ⟨0, _⟩ => show t.val / 64 = win0_3.index t 0 * 1 + 1 * (j 0).val; rw [e0]; omega
  | ⟨1, _⟩ => show (j 2).val = win0_3.index t 2 * 8192 + 1 * (j 2).val; rw [e2]; omega

/-- An index of the first array is in point t's block iff each coordinate is in the block's range on its axis. -/
theorem mem_blk_rows (t : Fin cfg0.N) (i : S2x1x8192.Idx) :
    i ∈ ((cfg0.win 2).blk t).view.set ↔
      ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

theorem mem_blk_cols (t : Fin cfg0.N) (i : S2x1x8192.Idx) :
    i ∈ ((cfg0.win 3).blk t).view.set ↔
      ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- The first output array after the run. -/
theorem final_rows : (dats m 0 c).arrAt 2 cfg0.N = rowsArr m c :=
  (dats m 0 c).arrAt_eq_of_cover 2 (rowsArr m c) (flushed_rows m c) fun i => by
    have hi0 : (i 0).val < 2 := (i 0).isLt
    have hi1 : (i 1).val < 1 := (i 1).isLt
    have hi2 : (i 2).val < 8192 := (i 2).isLt
    have hlt : 64 * (i 0).val + 8 * ((i 2).val / 1024) + 7 < cfg0.N := by rw [N_eq]; omega
    refine ⟨⟨64 * (i 0).val + 8 * ((i 2).val / 1024) + 7, hlt⟩, (flush0_2 _).mpr (by show (64 * (i 0).val + 8 * ((i 2).val / 1024) + 7) % 8 = 7; omega), ?_⟩
    rw [mem_blk_rows]
    obtain ⟨e0, e1, e2⟩ := idx2 ⟨64 * (i 0).val + 8 * ((i 2).val / 1024) + 7, hlt⟩
    intro a
    match a with
    | ⟨0, _⟩ =>
      show win0_2.index _ 0 * 1 ≤ (i 0).val ∧ (i 0).val < win0_2.index _ 0 * 1 + 1
      rw [e0]; show (64 * (i 0).val + 8 * ((i 2).val / 1024) + 7) / 64 * 1 ≤ (i 0).val ∧ (i 0).val < (64 * (i 0).val + 8 * ((i 2).val / 1024) + 7) / 64 * 1 + 1; omega
    | ⟨1, _⟩ =>
      show win0_2.index _ 1 * 1 ≤ (i 1).val ∧ (i 1).val < win0_2.index _ 1 * 1 + 1
      rw [e1]; omega
    | ⟨2, _⟩ =>
      show win0_2.index _ 2 * 1024 ≤ (i 2).val ∧ (i 2).val < win0_2.index _ 2 * 1024 + 1024
      rw [e2]; show (64 * (i 0).val + 8 * ((i 2).val / 1024) + 7) / 8 % 8 * 1024 ≤ (i 2).val ∧ (i 2).val < (64 * (i 0).val + 8 * ((i 2).val / 1024) + 7) / 8 % 8 * 1024 + 1024; omega

/-- The second output array after the run. -/
theorem final_cols : (dats m 0 c).arrAt 3 cfg0.N = colsArr m c :=
  (dats m 0 c).arrAt_eq_of_cover 3 (colsArr m c) (flushed_cols m c) fun i => by
    have hi0 : (i 0).val < 2 := (i 0).isLt
    have hi1 : (i 1).val < 1 := (i 1).isLt
    have hi2 : (i 2).val < 8192 := (i 2).isLt
    have hlt : 64 * (i 0).val + 63 < cfg0.N := by rw [N_eq]; omega
    refine ⟨⟨64 * (i 0).val + 63, hlt⟩, (flush0_3 _).mpr (by show (64 * (i 0).val + 63) % 64 = 63; omega), ?_⟩
    rw [mem_blk_cols]
    obtain ⟨e0, e1, e2⟩ := idx3 ⟨64 * (i 0).val + 63, hlt⟩
    intro a
    match a with
    | ⟨0, _⟩ =>
      show win0_3.index _ 0 * 1 ≤ (i 0).val ∧ (i 0).val < win0_3.index _ 0 * 1 + 1
      rw [e0]; show (64 * (i 0).val + 63) / 64 * 1 ≤ (i 0).val ∧ (i 0).val < (64 * (i 0).val + 63) / 64 * 1 + 1; omega
    | ⟨1, _⟩ =>
      show win0_3.index _ 1 * 1 ≤ (i 1).val ∧ (i 1).val < win0_3.index _ 1 * 1 + 1
      rw [e1]; omega
    | ⟨2, _⟩ =>
      show win0_3.index _ 2 * 8192 ≤ (i 2).val ∧ (i 2).val < win0_3.index _ 2 * 8192 + 8192
      rw [e2]; omega

/-- Dropping the unit axis of the first array gives the queries' distances to their nearest keys. -/
theorem rows_reshaped (h : S2x1x8192.ShapeCasts S2x8192) :
    shapeCast S2x8192 (rowsArr m c) h = nearKey (Gq m c) (Gk m c) := by
  funext i
  rw [shapeCast_apply _ h i (ix3 (i 0) 0 (i 1)) (by
    rw [Shape.rowMajor_val_two, Shape.rowMajor_val_three]
    show ((i 0).val * 1 + (0 : Fin 1).val) * 8192 + (i 1).val = (i 0).val * 8192 + (i 1).val
    simp)]
  unfold rowsArr
  exact congrArg _ (eq_ix2 i).symm

/-- Dropping the unit axis of the second array gives the keys' distances to their nearest queries. -/
theorem cols_reshaped (h : S2x1x8192.ShapeCasts S2x8192) :
    shapeCast S2x8192 (colsArr m c) h = nearQuery (Gq m c) (Gk m c) := by
  funext i
  rw [shapeCast_apply _ h i (ix3 (i 0) 0 (i 1)) (by
    rw [Shape.rowMajor_val_two, Shape.rowMajor_val_three]
    show ((i 0).val * 1 + (0 : Fin 1).val) * 8192 + (i 1).val = (i 0).val * 8192 + (i 1).val
    simp)]
  unfold colsArr
  exact congrArg _ (eq_ix2 i).symm

/-- The program's result: the mean of means of the two arrays of nearest-neighbour distances. -/
def result : Buf (Elt Ideal) ((c : Thread nD τ).loc main_v11) :=
  meanOfMeans Facts₀.reducesTo_S2x8192_S2_d1 Facts₀.h_S_ Facts₀.bcast_S_S2 Facts₀.reducesTo_S2_S_d0
    (nearKey (Gq m c) (Gk m c)) (nearQuery (Gq m c) (Gk m c))

/-- The host operations after the region, applied to the two output arrays, compute it. -/
theorem tail_eq : Pipeline.afterTail₀ cfgs (dats m) 0 (V0 m) [hostOps1] c main_v11 = result m c := by
  have e2 : Pipeline.withArrays (cfgs 0).spec c (V0 m c) (fun w => (dats m 0 c).arrAt w (cfgs 0).N)
      (Proc.devRef .tc main_v0_0) = rowsArr m c :=
    (Pipeline.withArrays_arr spec0 launch0.win.arr_inj c _ _ 2).trans (final_rows m c)
  have e3 : Pipeline.withArrays (cfgs 0).spec c (V0 m c) (fun w => (dats m 0 c).arrAt w (cfgs 0).N)
      (Proc.devRef .tc main_v0_1) = colsArr m c :=
    (Pipeline.withArrays_arr spec0 launch0.win.arr_inj c _ _ 3).trans (final_cols m c)
  unfold Pipeline.afterTail₀
  show StableHlo.after hostOps1 _ (Proc.devRef .tc main_v11) = _
  after_results
  rw [e2, e3]
  unfold result meanOfMeans
  rw [← rows_reshaped m c Facts₀.shapeCasts_S2x1x8192_S2x8192, ← cols_reshaped m c Facts₀.shapeCasts_S2x1x8192_S2x8192]
  rfl

/-- The run, read: the result at the specification's value of the two clouds, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v11 (by decide)).trans (tail_eq m c),
        ((h c).1 1).trans (((dats m 0 c).arrAt_in 1 rfl _).trans ((A_eq m c 1).trans (V_main_arg0 m c))),
        ((h c).1 0).trans (((dats m 0 c).arrAt_in 0 rfl _).trans ((A_eq m c 0).trans (V_main_arg1 m c)))⟩)
    (run_main m ρ)

end Cert.KernelIdeal.Chamfer

end
-- ==== Proof.RefValue.lean ====
import proofs.«160537_j11218454577160_2_alg».proof.Proof.Gen.ReferenceIdeal.Read
import proofs.«160537_j11218454577160_2_alg».proof.Proof.Spec
import proofs.«160537_j11218454577160_2_alg».proof.Proof.LibSqrtOfMin

/-!
# The reference's result, as the specification's function of the two clouds

The reference expands the squared distance as the two squared norms minus twice the inner product, clamps it at zero,
takes the square root of every pair's value and only then the minima over the keys and over the queries. For clouds of
real coordinates the expansion is the sum of squared coordinate differences, and the square root, being monotone,
commutes with the minimum of the finitely many pairs: both arrays of minima are the specification's.
-/

noncomputable section

open Idealize.ShloMosaic Idealize.ShloMosaic.TcCoe Idealize.SL.Sem
open Idealize.ShloMosaic.ValueIdx

namespace Cert.ReferenceIdeal.Chamfer

open Cert.ReferenceIdeal Cert.ReferenceIdeal.Gen Cert.ReferenceIdeal.Read
open _root_.Chamfer (sqd nearKey nearQuery meanOfMeans sq_dist_expand ofBits_two sqrt_iInf fold_min_top_eq_iInf ofBits_inf)

variable (x0 x1 : S2x8192x3.Idx → EReal)

/-- The reference's distance of query r to key s of batch element b (x1 holds the queries, x0 the keys), for real
    coordinates: the square root of the clamped sum of squared coordinate differences. -/
theorem dist_apply (h0 : ∀ i, ∃ r : ℝ, x0 i = (r : EReal)) (h1 : ∀ i, ∃ r : ℝ, x1 i = (r : EReal))
    (b : Fin 2) (r s : Fin 8192) :
    val_main_v15 (F := Ideal) x0 x1 (ix3 b r s) = Ideal.sqrt (sqd x1 x0 b r s) := by
  rw [val_main_v15_apply, val_main_v14_apply, val_main_v12_apply, val_main_v13_apply, val_main_v9_apply,
    val_main_v11_apply, val_main_v10_apply, val_main_v7_apply, val_main_v8_apply, val_main_v2_apply, val_main_v5_apply,
    val_main_v1_apply, val_main_v4_apply, val_main_v6_apply]
  have e1 : ∀ k : Fin 3, idx_main_v1 (idx_main_v2 (idx_main_v7 (ix3 b r s))) k = ix3 b r k := fun k =>
    funext fun a => Fin.ext (by match a with | ⟨0, _⟩ => rfl | ⟨1, _⟩ => rfl | ⟨2, _⟩ => rfl)
  have e4 : ∀ k : Fin 3, idx_main_v4 (idx_main_v5 (idx_main_v8 (ix3 b r s))) k = ix3 b s k := fun k =>
    funext fun a => Fin.ext (by match a with | ⟨0, _⟩ => rfl | ⟨1, _⟩ => rfl | ⟨2, _⟩ => rfl)
  have el : ∀ k : Fin 3, lidx_main_v6 (ix3 b r s) k = ix3 b r k := fun k =>
    funext fun a => Fin.ext (by match a with | ⟨0, _⟩ => rfl | ⟨1, _⟩ => rfl | ⟨2, _⟩ => rfl)
  have er : ∀ k : Fin 3, ridx_main_v6 (ix3 b r s) k = ix3 b s k := fun k =>
    funext fun a => Fin.ext (by match a with | ⟨0, _⟩ => rfl | ⟨1, _⟩ => rfl | ⟨2, _⟩ => rfl)
  simp only [e1, e4, el, er, val_main_v0_apply, val_main_v3_apply, val_main_cst_apply, val_main_cst_0_apply,
    val_main_cst_1_apply, val_main_cst_2_apply, Fin.sum_univ_three, Ideal.hostUnary_sqrt_def, Ideal.maximumf_def,
    Ideal.subf_def, Ideal.addf_def, Ideal.mulf_def, Ideal.ofBits_def, Ideal.ofBits_zero_f32, ofBits_two]
  unfold sqd
  simp only [Ideal.ofBits_zero_f32]
  obtain ⟨g0, hg0⟩ := h1 (ix3 b r 0)
  obtain ⟨g1, hg1⟩ := h1 (ix3 b r 1)
  obtain ⟨g2, hg2⟩ := h1 (ix3 b r 2)
  obtain ⟨p0, hp0⟩ := h0 (ix3 b s 0)
  obtain ⟨p1, hp1⟩ := h0 (ix3 b s 1)
  obtain ⟨p2, hp2⟩ := h0 (ix3 b s 2)
  rw [hg0, hg1, hg2, hp0, hp1, hp2, sq_dist_expand]

/-- Each query's smallest distance over the keys is the specification's. -/
theorem near_key_eq (h0 : ∀ i, ∃ r : ℝ, x0 i = (r : EReal)) (h1 : ∀ i, ∃ r : ℝ, x1 i = (r : EReal)) :
    val_main_v16 (F := Ideal) x0 x1 = nearKey x1 x0 := by
  funext i
  unfold val_main_v16 nearKey
  rw [Host.reduce_eq_fold_single FloatOps.minimumf _ _ Facts₀.reducesTo_S2x8192x8192_S2x8192_d2 (by decide) Facts₀.h_S_ i]
  show Finset.fold min (Ideal.ofBits .f32 0x7F800000#32) _ Finset.univ = _
  rw [ofBits_inf, fold_min_top_eq_iInf, sqrt_iInf]
  refine iInf_congr fun k => ?_
  rw [← dist_apply x0 x1 h0 h1 (i 0) (i 1) k]
  refine congrArg (val_main_v15 (F := Ideal) x0 x1) (funext fun a => Fin.ext ?_)
  match a with
  | ⟨0, _⟩ => rfl
  | ⟨1, _⟩ => rfl
  | ⟨2, _⟩ => rfl

/-- Each key's smallest distance over the queries is the specification's. -/
theorem near_query_eq (h0 : ∀ i, ∃ r : ℝ, x0 i = (r : EReal)) (h1 : ∀ i, ∃ r : ℝ, x1 i = (r : EReal)) :
    val_main_v17 (F := Ideal) x0 x1 = nearQuery x1 x0 := by
  funext i
  unfold val_main_v17 nearQuery
  rw [Host.reduce_eq_fold_single FloatOps.minimumf _ _ Facts₀.reducesTo_S2x8192x8192_S2x8192_d1 (by decide) Facts₀.h_S_ i]
  show Finset.fold min (Ideal.ofBits .f32 0x7F800000#32) _ Finset.univ = _
  rw [ofBits_inf, fold_min_top_eq_iInf, sqrt_iInf]
  refine iInf_congr fun k => ?_
  rw [← dist_apply x0 x1 h0 h1 (i 0) k (i 1)]
  refine congrArg (val_main_v15 (F := Ideal) x0 x1) (funext fun a => Fin.ext ?_)
  match a with
  | ⟨0, _⟩ => rfl
  | ⟨1, _⟩ => rfl
  | ⟨2, _⟩ => rfl

/-- The reference's result is the mean of means of the two arrays of nearest-neighbour distances. -/
theorem result_eq (h0 : ∀ i, ∃ r : ℝ, x0 i = (r : EReal)) (h1 : ∀ i, ∃ r : ℝ, x1 i = (r : EReal)) :
    val_main_v26 (F := Ideal) x0 x1
      = meanOfMeans Facts₀.reducesTo_S2x8192_S2_d1 Facts₀.h_S_ Facts₀.bcast_S_S2 Facts₀.reducesTo_S2_S_d0
          (nearKey x1 x0) (nearQuery x1 x0) := by
  rw [← near_key_eq x0 x1 h0 h1, ← near_query_eq x0 x1 h0 h1]
  rfl

end Cert.ReferenceIdeal.Chamfer

end
-- ==== Proof.Finite.lean ====
import proofs.«160537_j11218454577160_2_alg».proof.Pre_finite_inputs
import Idealize.ShloMosaic.PureOps.Ideal
import Idealize.ShloMosaic.PureOps.Ideal.Laws
import Idealize.ShloMosaic.Lib.ReduceAll
import Idealize.ShloMosaic.Lib.ValueIdx

/-!
# The precondition, read back: every coordinate of both point clouds is a real number

The precondition says that the absolute value of every entry of both arguments is below +infinity. Over the
extended reals that rules out both infinities, so every entry is (the image of) a real.
-/

noncomputable section

open Idealize.ShloMosaic

namespace Cert.Pre_finite_inputs.Chamfer

open Cert.Pre_finite_inputs

/-- An extended real whose absolute value is below the top element is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

instance : Subsingleton S_.Idx := ⟨fun a b => funext fun d => d.elim0⟩

variable [Facts]

/-- Under the precondition every entry of both arguments is a real number. -/
theorem real_of_pre (a0 a1 : FVec Ideal S2x8192x3 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h1, h2⟩ := IntOp.andi_eq_one.mp h0
  refine ⟨fun i => ?_, fun i => ?_⟩
  · have e := Host.reduce_andi_all _ _ _ _ _ h1 i
    refine real_of_abs_lt_top (a0 i) ?_
    simp [cmpf, Host.absf, broadcastInDim, constant, Ideal.ofBits, Ideal.ieee] at e
    exact e
  · have e := Host.reduce_andi_all _ _ _ _ _ h2 i
    refine real_of_abs_lt_top (a1 i) ?_
    simp [cmpf, Host.absf, broadcastInDim, constant, Ideal.ofBits, Ideal.ieee] at e
    exact e

end Cert.Pre_finite_inputs.Chamfer

end
-- ==== Proof.lean ====
/- Two clouds of 8192 points of 3-space per batch element. The kernel visits the 8 x 8 tiles of the 8192 x 8192 table of
   squared distances of each batch element, forming each tile as the sum of the three squared coordinate differences
   (clamped below at zero), and keeps two running minima, one per query over the keys and one per key over the queries;
   it takes the square roots once, of the completed minima. The reference forms the whole table through the expansion
   "squared norm + squared norm - twice the inner product" (clamped the same way), takes every entry's square root and
   then the two families of minima. Both end with the mean over the batch of the sum of the two families' means.
   Over the extended reals, for clouds of real coordinates (the precondition), the two agree: the expansion is an
   identity of real numbers, and the square root is monotone, so it commutes with the minimum of finitely many values;
   minima, folded in any tiling and order from +infinity, are infima.
   The three frames are the generated ones (the reference's is its run with the result dropped); nothing was rewritten
   in the kernel's idealization. -/
import proofs.«160537_j11218454577160_2_alg».proof.Defs
import proofs.«160537_j11218454577160_2_alg».proof.Proof.Gen.Kernel
import proofs.«160537_j11218454577160_2_alg».proof.Proof.Gen.Kernel.Skeleton
import proofs.«160537_j11218454577160_2_alg».proof.Proof.Gen.Kernel.Launch
import proofs.«160537_j11218454577160_2_alg».proof.Proof.Gen.Kernel.Points
import proofs.«160537_j11218454577160_2_alg».proof.Proof.Gen.Kernel.Frame
import proofs.«160537_j11218454577160_2_alg».proof.Proof.Gen.KernelIdeal
import proofs.«160537_j11218454577160_2_alg».proof.Proof.Gen.KernelIdeal.Skeleton
import proofs.«160537_j11218454577160_2_alg».proof.Proof.Gen.KernelIdeal.Launch
import proofs.«160537_j11218454577160_2_alg».proof.Proof.Gen.KernelIdeal.Points
import proofs.«160537_j11218454577160_2_alg».proof.Proof.Gen.KernelIdeal.Frame
import proofs.«160537_j11218454577160_2_alg».proof.Proof.Gen.ReferenceIdeal
import proofs.«160537_j11218454577160_2_alg».proof.Proof.Gen.ReferenceIdeal.Run
import proofs.«160537_j11218454577160_2_alg».proof.Proof.Gen.ReferenceIdeal.Read
import proofs.«160537_j11218454577160_2_alg».proof.Proof.Gen.Pre_finite_inputs
import proofs.«160537_j11218454577160_2_alg».proof.Proof.KernelValue
import proofs.«160537_j11218454577160_2_alg».proof.Proof.RefValue
import proofs.«160537_j11218454577160_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the two clouds, whose coordinates the precondition makes real, both programs end at the
    mean of means of the queries' distances to their nearest keys and the keys' distances to their nearest queries. -/
theorem algebraic : Cert.algebraic_KernelIdeal_ReferenceIdeal := by
  intro m ρ m' ρ' hpre hagree
  refine ⟨fun c => Cert.KernelIdeal.Chamfer.result m c, Cert.KernelIdeal.Chamfer.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1⟩ := Cert.Pre_finite_inputs.Chamfer.real_of_pre _ _ (hpre c)
  rw [Cert.ReferenceIdeal.Read.val_main_v26_eq, (hagree c).1, (hagree c).2,
    Cert.ReferenceIdeal.Chamfer.result_eq _ _ f0 f1]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
